-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x12 : Shape := ⟨2, ![32, 12]⟩
abbrev S12 : Shape := ⟨1, ![12]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x12 : S_.BroadcastsInDim S32x12 (![] : Fin 0 → Fin S32x12.rank)
  reducesTo_S32x12_S_d0_1 : S32x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg5 : FVec F S12 .f32) (main_v13 : IVec S_ 1) (main_v16 : IVec S32x12 1) : IVec S_ 1 :=
  let main_c_5 : IVec S_ 1 := constantI S_ 1 1#1
  let main_v17 : IVec S_ 1 := (fun x v => Host.reduce IntOp.andi x v reducesTo_S32x12_S_d0_1 h_S_) main_v16 main_c_5
  let main_v18 : IVec S_ 1 := andi main_v13 main_v17
  let main_v19 : FVec F S12 .f32 := Host.absf main_arg5
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x12 .f32) (main_arg5 : FVec F S12 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x12 .f32 := Host.absf main_arg4
  let main_cst_4 : FVec F S_ .f32 := constant S_ .f32 0x7F800000#32
  let main_v15 : FVec F S32x12 .f32 := broadcastInDim S32x12 ![] bcast_S_S32x12 main_cst_4
  let main_v16 : IVec S32x12 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x12 : Shape := ⟨2, ![32, 12]⟩
abbrev S12 : Shape := ⟨1, ![12]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x256 : Shape := ⟨2, ![5000, 256]⟩
abbrev S5000x32 : Shape := ⟨2, ![5000, 32]⟩
abbrev S3300000x32 : Shape := ⟨2, ![3300000, 32]⟩
abbrev S1x32 : Shape := ⟨2, ![1, 32]⟩
abbrev S100000x12 : Shape := ⟨2, ![100000, 12]⟩
abbrev S5000x12 : Shape := ⟨2, ![5000, 12]⟩
abbrev S3300000x12 : Shape := ⟨2, ![3300000, 12]⟩
abbrev S1x12 : Shape := ⟨2, ![1, 12]⟩

abbrev nBuf : Space → Nat
  | .hbm => 89
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x12, .f32⟩
  | .hbm, ⟨5, _⟩ => ⟨S12, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x12, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x12, .f32⟩
  | .hbm, ⟨79, _⟩ => ⟨S3300000x1, .f32⟩
  | .hbm, ⟨80, _⟩ => ⟨S3300000x12, .f32⟩
  | .hbm, ⟨81, _⟩ => ⟨S3300000x12, .f32⟩
  | .hbm, ⟨82, _⟩ => ⟨S_, .f32⟩
  | .hbm, ⟨83, _⟩ => ⟨S100000x12, .f32⟩
  | .hbm, ⟨84, _⟩ => ⟨S3300000x1, .i32⟩
  | .hbm, ⟨85, _⟩ => ⟨S100000x12, .f32⟩
  | .hbm, ⟨86, _⟩ => ⟨S1x12, .f32⟩
  | .hbm, ⟨87, _⟩ => ⟨S100000x12, .f32⟩
  | .hbm, ⟨88, _⟩ => ⟨S100000x12, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x12, .f32⟩
  | .local _ .vmem, ⟨8, _⟩ => ⟨S5000x12, .f32⟩
  | .local _ .vmem, ⟨9, _⟩ => ⟨S5000x12, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x12 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x12_S32x12_0_0 : ∀ a, (![0, 0] : Fin 2 → Nat) a + S32x12.size a ≤ S32x12.size a
  h_S32x12 : 0 < S32x12.numel
  inb_S5000x12_S5000x12_0_0 : ∀ a, (![0, 0] : Fin 2 → Nat) a + S5000x12.size a ≤ S5000x12.size a
  h_S5000x12 : 0 < S5000x12.numel
  bcast_S3300000x1_S3300000x12_0_1 : S3300000x1.BroadcastsInDim S3300000x12 (![0, 1] : Fin 2 → Fin S3300000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x12_S5000x12_1_0_0_1_n_n_wf : DotDims.WF S5000x32 S32x12 S5000x12 [1] [0] [0] [1] [] []
  gather_S100000x12_S3300000x1_S3300000x12_1_0_n_n_0_1_112_wf : GatherDims.WF S100000x12 S3300000x1 S3300000x12 [1] [0] [] [0] [] 1 ![1, 12]
  scatter_S100000x12_S3300000x1_S3300000x12_1_0_0_1_wf : ScatterDims.WF S100000x12 S3300000x1 S3300000x12 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x12.size a ≤ S32x12.size a
  hwx1_1 : ∀ i : grid1.Coords, EltTy.bits .f32 = 32 ∨ (Rect.block (s := S32x12) S32x12.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x12.size a ≤ S100000x12.size a
  hwx1_2 : ∀ i : grid1.Coords, EltTy.bits .f32 = 32 ∨ (Rect.block (s := S100000x12) S5000x12.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x12_S5000x12_1_0_0_1_n_n : DotDims S5000x32 S32x12 S5000x12 where
  lhsContracting := [1]
  rhsContracting := [0]
  lhsNonContracting := [0]
  rhsNonContracting := [1]
  lhsBatch := []
  rhsBatch := []
  wf := dot_S5000x32_S32x12_S5000x12_1_0_0_1_n_n_wf
def gather_S100000x12_S3300000x1_S3300000x12_1_0_n_n_0_1_112 : GatherDims S100000x12 S3300000x1 S3300000x12 where
  offsetDims := [1]
  collapsedSliceDims := [0]
  operandBatchingDims := []
  startIndicesBatchingDims := []
  startIndexMap := [0]
  indexVectorDim := 1
  sliceSizes := ![1, 12]
  wf := gather_S100000x12_S3300000x1_S3300000x12_1_0_n_n_0_1_112_wf
def scatter_S100000x12_S3300000x1_S3300000x12_1_0_0_1 : ScatterDims S100000x12 S3300000x1 S3300000x12 where
  updateWindowDims := [1]
  insertedWindowDims := [0]
  scatterDimsToOperandDims := [0]
  indexVectorDim := 1
  wf := scatter_S100000x12_S3300000x1_S3300000x12_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x12.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x12.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x12 : Shape := ⟨2, ![32, 12]⟩
abbrev S12 : Shape := ⟨1, ![12]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x12 : Shape := ⟨2, ![100000, 12]⟩
abbrev S3300000x12 : Shape := ⟨2, ![3300000, 12]⟩
abbrev S1x12 : Shape := ⟨2, ![1, 12]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x12, .f32⟩
  | .hbm, ⟨5, _⟩ => ⟨S12, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x12, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x12, .f32⟩
  | .hbm, ⟨115, _⟩ => ⟨S3300000x1, .f32⟩
  | .hbm, ⟨116, _⟩ => ⟨S3300000x12, .f32⟩
  | .hbm, ⟨117, _⟩ => ⟨S3300000x12, .f32⟩
  | .hbm, ⟨118, _⟩ => ⟨S_, .f32⟩
  | .hbm, ⟨119, _⟩ => ⟨S100000x12, .f32⟩
  | .hbm, ⟨120, _⟩ => ⟨S3300000x1, .i32⟩
  | .hbm, ⟨121, _⟩ => ⟨S100000x12, .f32⟩
  | .hbm, ⟨122, _⟩ => ⟨S1x12, .f32⟩
  | .hbm, ⟨123, _⟩ => ⟨S100000x12, .f32⟩
  | .hbm, ⟨124, _⟩ => ⟨S100000x12, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x12_0_1 : S3300000x1.BroadcastsInDim S3300000x12 (![0, 1] : Fin 2 → Fin S3300000x12.rank)
  bcast_S_S100000x12 : S_.BroadcastsInDim S100000x12 (![] : Fin 0 → Fin S100000x12.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  dot_S100000x256_S256x32_S100000x32_1_0_0_1_n_n_wf : DotDims.WF S100000x256 S256x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x12_S100000x12_1_0_0_1_n_n_wf : DotDims.WF S100000x32 S32x12 S100000x12 [1] [0] [0] [1] [] []
  gather_S100000x12_S3300000x1_S3300000x12_1_0_n_n_0_1_112_wf : GatherDims.WF S100000x12 S3300000x1 S3300000x12 [1] [0] [] [0] [] 1 ![1, 12]
  scatter_S100000x12_S3300000x1_S3300000x12_1_0_0_1_wf : ScatterDims.WF S100000x12 S3300000x1 S3300000x12 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x12_S100000x12_1_0_0_1_n_n : DotDims S100000x32 S32x12 S100000x12 where
  lhsContracting := [1]
  rhsContracting := [0]
  lhsNonContracting := [0]
  rhsNonContracting := [1]
  lhsBatch := []
  rhsBatch := []
  wf := dot_S100000x32_S32x12_S100000x12_1_0_0_1_n_n_wf
def gather_S100000x12_S3300000x1_S3300000x12_1_0_n_n_0_1_112 : GatherDims S100000x12 S3300000x1 S3300000x12 where
  offsetDims := [1]
  collapsedSliceDims := [0]
  operandBatchingDims := []
  startIndicesBatchingDims := []
  startIndexMap := [0]
  indexVectorDim := 1
  sliceSizes := ![1, 12]
  wf := gather_S100000x12_S3300000x1_S3300000x12_1_0_n_n_0_1_112_wf
def scatter_S100000x12_S3300000x1_S3300000x12_1_0_0_1 : ScatterDims S100000x12 S3300000x1 S3300000x12 where
  updateWindowDims := [1]
  insertedWindowDims := [0]
  scatterDimsToOperandDims := [0]
  indexVectorDim := 1
  wf := scatter_S100000x12_S3300000x1_S3300000x12_1_0_0_1_wf

class Facts : Prop extends Facts₀ where

variable [Facts]
-- ==== Proof.KernelRun.lean ====
/-
  The idealized kernel program's run, with everything it leaves in memory.

  The program is a chain of eight segments: three stretches of host operations (the edge lists with self loops, the
  degree normalisation), the first matrix-product region, two stretches (gather, scale, scatter-add, bias, relu), the
  second matrix-product region, and a last stretch (gather, scale, scatter-add, bias). Every weakly fair execution
  terminates without a fault, and in the final memory every buffer that outlives the regions holds what the fold of
  those eight segments over the launch memory gives it. The frame claim keeps only the six arguments of this; the
  value claim needs the result buffer too, so the run is stated here once with the whole fold in its post.
-/
import proofs.«157875_j67259187855731_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that is not scoped to a
    region ends at the contents the fold of the eight segments gives it from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer is among the buffers that outlive the regions. -/
theorem v64_mem : (Proc.devRef .tc main_v64 : DevRef τ sig) ∈ Pipeline.ucRefs τ sig := mem_uc main_v64 (by decide)

end Cert.KernelIdeal.Whole

end
-- ==== Proof.HostChain.lean ====
/-
  The graph-convolution glue around the two matrix products, as pure functions, and what each stretch of the kernel
  program's host operations leaves in the buffers the later stretches read.

  With e the 2 x 3200000 edge list and N = 100000 nodes:
    src e, dst e   the two rows of e, each followed by 0, 1, ..., N-1 (one self loop per node): 3300000 entries;
    invSqrtDeg d   deg = scatter-add of ones at d;  where deg > 0 its reciprocal square root, else 0;
    edgeNorm s d   invSqrtDeg d gathered at s, times invSqrtDeg d gathered at d (negative indices shifted up by N first);
    aggregate h    the rows of h gathered at s, each scaled by its edge's norm, scatter-added at d into zeros;
    hidden h b     max (aggregate h + b, 0): the first layer after its matrix product h;
    logits h b     aggregate h + b: the second layer after its matrix product h.
  The kernel program computes src, dst and edgeNorm once, before its first region; the stretch between the regions is
  hidden of the first region's output, the stretch after the second region is logits of the second region's output.
  Every lemma is stated for arbitrary contents V before the stretch, so nothing here depends on what a region wrote.
-/
import proofs.«157875_j67259187855731_2_alg».proof.Proof.Gen.KernelIdeal.Launch
import Idealize.ShloMosaic.Lib.StableHlo.Run

set_option maxRecDepth 16384

noncomputable section

namespace Cert.KernelIdeal.Graph

open Idealize.ShloMosaic Idealize.ShloMosaic.TcCoe Idealize.SL.Sem Idealize.ShloMosaic.StableHlo
open Cert.KernelIdeal Cert.KernelIdeal.Gen

variable {F : FTy → Type} [FloatOps F]

/-! ## The glue as functions -/

/-- Row 0 of the edge list (the sources) followed by every node once. -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row 1 of the edge list (the targets) followed by every node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An index vector as the one-column index array of a gather, a negative entry first shifted up by the number of nodes. -/
def wrapped (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The number of edges (self loops included) arriving at each node: ones scatter-added at the targets. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 d) (broadcastInDim S3300000 ![] bcast_S_S3300000 (constant S_ .f32 0x3F800000#32))

/-- The reciprocal square root of the degree where it is positive, zero elsewhere. -/
def invSqrtDeg (d : (⟨S3300000, .i32⟩ : BufTy).Contents (Elt F)) : (⟨S100000, .f32⟩ : BufTy).Contents (Elt F) :=
  select (cmpf .ogt (degree d) (broadcastInDim S100000 ![] bcast_S_S100000 (constant S_ .f32 0x00000000#32))) (Host.rsqrt (degree d))
    (broadcastInDim S100000 ![] bcast_S_S100000 (id (constant S_ .f32 0x00000000#32)))

/-- The symmetric normalisation of each edge: the factor of its source times the factor of its target. -/
def edgeNorm (s d : (⟨S3300000, .i32⟩ : BufTy).Contents (Elt F)) : (⟨S3300000, .f32⟩ : BufTy).Contents (Elt F) :=
  mulf (Host.gather gather_S100000_S3300000x1_S3300000_n_0_n_n_0_1_1 (invSqrtDeg d) (wrapped s))
    (Host.gather gather_S100000_S3300000x1_S3300000_n_0_n_n_0_1_1 (invSqrtDeg d) (wrapped d))

/-- The first layer after its matrix product `h`: rows gathered at the sources, scaled per edge, scatter-added at the
    targets, the bias added, negative entries replaced by zero. -/
def hidden (h : (⟨S100000x32, .f32⟩ : BufTy).Contents (Elt F)) (s d : (⟨S3300000, .i32⟩ : BufTy).Contents (Elt F))
    (w : (⟨S3300000, .f32⟩ : BufTy).Contents (Elt F)) (b : (⟨S32, .f32⟩ : BufTy).Contents (Elt F)) : (⟨S100000x32, .f32⟩ : BufTy).Contents (Elt F) :=
  maximumf
    (addf
      (Host.scatterAdd scatter_S100000x32_S3300000x1_S3300000x32_1_0_0_1 (broadcastInDim S100000x32 ![] bcast_S_S100000x32 (constant S_ .f32 0x00000000#32))
        (broadcastInDim S3300000x1 ![0] bcast_S3300000_S3300000x1_0 d)
        (mulf (Host.gather gather_S100000x32_S3300000x1_S3300000x32_1_0_n_n_0_1_132 h (wrapped s))
          (broadcastInDim S3300000x32 ![0, 1] bcast_S3300000x1_S3300000x32_0_1 (broadcastInDim S3300000x1 ![0] bcast_S3300000_S3300000x1_0 w))))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The second layer after its matrix product `h`: the same aggregation over 12 columns, the bias added. -/
def logits (h : (⟨S100000x12, .f32⟩ : BufTy).Contents (Elt F)) (s d : (⟨S3300000, .i32⟩ : BufTy).Contents (Elt F))
    (w : (⟨S3300000, .f32⟩ : BufTy).Contents (Elt F)) (b : (⟨S12, .f32⟩ : BufTy).Contents (Elt F)) : (⟨S100000x12, .f32⟩ : BufTy).Contents (Elt F) :=
  addf
    (Host.scatterAdd scatter_S100000x12_S3300000x1_S3300000x12_1_0_0_1 (broadcastInDim S100000x12 ![] bcast_S_S100000x12 (constant S_ .f32 0x00000000#32))
      (broadcastInDim S3300000x1 ![0] bcast_S3300000_S3300000x1_0 d)
      (mulf (Host.gather gather_S100000x12_S3300000x1_S3300000x12_1_0_n_n_0_1_112 h (wrapped s))
        (broadcastInDim S3300000x12 ![0, 1] bcast_S3300000x1_S3300000x12_0_1 (broadcastInDim S3300000x1 ![0] bcast_S3300000_S3300000x1_0 w))))
    (broadcastInDim S100000x12 ![0, 1] bcast_S1x12_S100000x12_0_1 (broadcastInDim S1x12 ![1] bcast_S12_S1x12_1 b))

/-! ## Before the first region: the index vectors and the edge normalisation -/

section Stretches

variable (V : Valuation τ sig (Elt F))

/-- The contents after the three stretches that precede the first region. -/
abbrev prelude : Valuation τ sig (Elt F) := after hostOps0_2 (after hostOps0_1 (after hostOps0 V))

theorem prelude_src : prelude V (Proc.devRef .tc main_v5) = src (V (Proc.devRef .tc main_arg1)) := by
  simp only [prelude, hostOps0, hostOps0_1, hostOps0_2]; after_results_simp <;> rfl

theorem prelude_dst : prelude V (Proc.devRef .tc main_v6) = dst (V (Proc.devRef .tc main_arg1)) := by
  simp only [prelude, hostOps0, hostOps0_1, hostOps0_2]; after_results_simp <;> rfl

theorem prelude_norm : prelude V (Proc.devRef .tc main_v29)
    = edgeNorm (src (V (Proc.devRef .tc main_arg1))) (dst (V (Proc.devRef .tc main_arg1))) := by
  simp only [prelude, hostOps0, hostOps0_1, hostOps0_2]; after_results_simp <;> rfl

theorem prelude_arg0 : prelude V (Proc.devRef .tc main_arg0) = V (Proc.devRef .tc main_arg0) := by
  simp only [prelude, hostOps0, hostOps0_1, hostOps0_2]; after_results_simp <;> rfl
theorem prelude_arg2 : prelude V (Proc.devRef .tc main_arg2) = V (Proc.devRef .tc main_arg2) := by
  simp only [prelude, hostOps0, hostOps0_1, hostOps0_2]; after_results_simp <;> rfl
theorem prelude_arg3 : prelude V (Proc.devRef .tc main_arg3) = V (Proc.devRef .tc main_arg3) := by
  simp only [prelude, hostOps0, hostOps0_1, hostOps0_2]; after_results_simp <;> rfl
theorem prelude_arg4 : prelude V (Proc.devRef .tc main_arg4) = V (Proc.devRef .tc main_arg4) := by
  simp only [prelude, hostOps0, hostOps0_1, hostOps0_2]; after_results_simp <;> rfl
theorem prelude_arg5 : prelude V (Proc.devRef .tc main_arg5) = V (Proc.devRef .tc main_arg5) := by
  simp only [prelude, hostOps0, hostOps0_1, hostOps0_2]; after_results_simp <;> rfl

/-! ## Between the regions: the first layer's aggregation, bias and relu -/

/-- The contents after the two stretches between the regions. -/
abbrev between : Valuation τ sig (Elt F) := after hostOps1_1 (after hostOps1 V)

theorem between_hidden : between V (Proc.devRef .tc main_v47)
    = hidden (V (Proc.devRef .tc main_v30)) (V (Proc.devRef .tc main_v5)) (V (Proc.devRef .tc main_v6))
        (V (Proc.devRef .tc main_v29)) (V (Proc.devRef .tc main_arg3)) := by
  simp only [between, hostOps1, hostOps1_1]; after_results_simp <;> rfl

theorem between_v5 : between V (Proc.devRef .tc main_v5) = V (Proc.devRef .tc main_v5) := by
  simp only [between, hostOps1, hostOps1_1]; after_results_simp <;> rfl
theorem between_v6 : between V (Proc.devRef .tc main_v6) = V (Proc.devRef .tc main_v6) := by
  simp only [between, hostOps1, hostOps1_1]; after_results_simp <;> rfl
theorem between_v29 : between V (Proc.devRef .tc main_v29) = V (Proc.devRef .tc main_v29) := by
  simp only [between, hostOps1, hostOps1_1]; after_results_simp <;> rfl
theorem between_arg4 : between V (Proc.devRef .tc main_arg4) = V (Proc.devRef .tc main_arg4) := by
  simp only [between, hostOps1, hostOps1_1]; after_results_simp <;> rfl
theorem between_arg5 : between V (Proc.devRef .tc main_arg5) = V (Proc.devRef .tc main_arg5) := by
  simp only [between, hostOps1, hostOps1_1]; after_results_simp <;> rfl

/-! ## After the second region: the second layer's aggregation and bias -/

theorem tail_logits : after hostOps2 V (Proc.devRef .tc main_v64)
    = logits (V (Proc.devRef .tc main_v48)) (V (Proc.devRef .tc main_v5)) (V (Proc.devRef .tc main_v6))
        (V (Proc.devRef .tc main_v29)) (V (Proc.devRef .tc main_arg5)) := by
  simp only [hostOps2]; after_results_simp <;> rfl

end Stretches

end Cert.KernelIdeal.Graph

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.Layer1Product.lean ====
/-
  The first matrix-product region, read as a value.

  The region walks the 100000 rows of its left array in 20 blocks of 5000 rows. At block t the body loads rows
  5000 t .. 5000 t + 4999 of the left array (all 256 columns) and the whole 256 x 32 right array, rounds both to bf16
  (the identity on extended reals), multiplies them into a zero accumulator and stores the 5000 x 32 product, which is
  written back as rows 5000 t .. 5000 t + 4999 of the output. The contraction axis is not blocked, so entry (r, c) of a
  block is the full sum over k of left(5000 t + r, k) * right(k, c): the blocks are restrictions of one function, the
  product of the two arrays, and the 20 blocks tile the output. Hence the output array ends holding that product, whatever
  the region found in its input arrays (the statement is for arbitrary entry contents V).
-/
import proofs.«157875_j67259187855731_2_alg».proof.Proof.Gen.KernelIdeal.Frame
import proofs.«157875_j67259187855731_2_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Layer1Product

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of a 100000 x 256 array and a 256 x 32 array of extended reals: entry (r, c) is the sum over k of
    a(r, k) * b(k, c). No finiteness is assumed: the sum is taken in the extended reals as it stands. -/
def product (a : FVec Ideal S100000x256 .f32) (b : FVec Ideal S256x32 .f32) : FVec Ideal S100000x32 .f32 :=
  fun i => ∑ k : Fin 256, a (ix2 (i 0) k) * b (ix2 k (i 1))

theorem zero_offsets : (![0, 0] : Fin 2 → Nat) = fun _ => 0 := funext fun a => by fin_cases a <;> rfl

/-- The body's stored value at entry y of a block: the sum over k of the loaded left block at (y 0, k) times the loaded
    right array at (k, y 1). The two roundings to bf16 are the identity. -/
theorem payload_apply (x0 : Vec Ideal S5000x256 .f32) (x1 : Vec Ideal S256x32 .f32) (y : S5000x32.Idx) :
    k0_pay1 (F := Ideal) x0 x1 y = ∑ k : Fin 256, x0 (ix2 (y 0) k) * x1 (ix2 k (y 1)) := by
  unfold k0_pay1
  refine (MatmulRows.matmul_zero_apply dot_S5000x256_S256x32_S5000x32_1_0_0_1_n_n none rfl rfl rfl rfl (fun _ _ => rfl) (fun _ _ => rfl) _ _ y).trans ?_
  refine Finset.sum_congr rfl fun k _ => ?_
  rfl

/-- The printed index maps, decided over the 20 grid points: the left and output windows sit at block (t, 0), the right
    window always at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Entry

variable (V : (c : Dev nD) → (b : Ref sig .tc) → Buf (Elt Ideal) ((c : Thread nD τ).loc b))

/-- What grid point t writes back is block t of the product of the two input arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x32) zero_offsets]
  obtain ⟨e0, e1, e2, e3, e4, e5⟩ := index_facts t
  funext y
  show k0_pay1 (F := Ideal) (iblk0 V c 0 t) (iblk0 V c 1 t) y = product (V c main_arg0) (V c main_arg2) (((cfg0.win 2).blk t).view.emb y)
  refine (payload_apply _ _ y).trans ?_
  unfold product
  refine Finset.sum_congr rfl fun k _ => ?_
  have hy0 : (y 0).val < 5000 := (y 0).isLt
  have hy1 : (y 1).val < 32 := (y 1).isLt
  have hk : k.val < 256 := k.isLt
  have hl : iblk0 V c 0 t (ix2 (y 0) k) = V c main_arg0 (ix2 ((((cfg0.win 2).blk t).view.emb y) 0) k) := by
    show V c main_arg0 (((cfg0.win 0).blk t).view.emb (ix2 (y 0) k)) = _
    refine congrArg (V c main_arg0) ?_
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 256 + 1 * k.val = k.val; omega
  have hr : iblk0 V c 1 t (ix2 k (y 1)) = V c main_arg2 (ix2 k ((((cfg0.win 2).blk t).view.emb y) 1)) := by
    show V c main_arg2 (((cfg0.win 1).blk t).view.emb (ix2 k (y 1))) = _
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 32 + 1 * (y 1).val = win0_2.index t (1 : Fin 2) * 32 + 1 * (y 1).val; omega
  rw [hl, hr]

/-- An index of the output array lies in block t exactly when each coordinate lies in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Row r of the output lies in block r / 5000, and every block is written back: the blocks cover the array. -/
theorem covered (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨e0, e1, e2, e3, e4, e5⟩ := index_facts t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After the region its output array is the product of its two input arrays as the region found them. -/
theorem output_eq (c : Dev nD) : (dat0 V c).arrAt 2 cfg0.N = product (V c main_arg0) (V c main_arg2) :=
  (dat0 V c).arrAt_eq_of_cover 2 (product (V c main_arg0) (V c main_arg2)) (fun t _ => flushed_eq V c t) covered

end Entry

end Cert.KernelIdeal.Layer1Product

end
-- ==== Proof.Layer2Product.lean ====
/-
  The second matrix-product region, read as a value.

  The region walks the 100000 rows of its left array in 20 blocks of 5000 rows. At block t the body loads rows
  5000 t .. 5000 t + 4999 of the left array (all 32 columns) and the whole 32 x 12 right array, rounds both to bf16
  (the identity on extended reals), multiplies them into a zero accumulator and stores the 5000 x 12 product, which is
  written back as rows 5000 t .. 5000 t + 4999 of the output. The contraction axis is not blocked, so entry (r, c) of a
  block is the full sum over k of left(5000 t + r, k) * right(k, c): the blocks are restrictions of one function, the
  product of the two arrays, and the 20 blocks tile the output. Hence the output array ends holding that product, whatever
  the region found in its input arrays (the statement is for arbitrary entry contents V).
-/
import proofs.«157875_j67259187855731_2_alg».proof.Proof.Gen.KernelIdeal.Frame
import proofs.«157875_j67259187855731_2_alg».proof.Proof.LibMatmulRows
import Idealize.ShloMosaic.Lib.Pipeline.Value
import Idealize.ShloMosaic.Lib.ValueIdx
import Idealize.ShloMosaic.PureOps.Ideal.Laws

set_option maxRecDepth 16384

noncomputable section

namespace Cert.KernelIdeal.Layer2Product

open Idealize.ShloMosaic Idealize.ShloMosaic.TcCoe Idealize.SL.Sem Idealize.ShloMosaic.ValueIdx
open Idealize.ShloMosaic.Pipeline (Dat Cfg Window)
open Cert.KernelIdeal Cert.KernelIdeal.Gen

/-- The product of a 100000 x 32 array and a 32 x 12 array of extended reals: entry (r, c) is the sum over k of
    a(r, k) * b(k, c). No finiteness is assumed: the sum is taken in the extended reals as it stands. -/
def product (a : FVec Ideal S100000x32 .f32) (b : FVec Ideal S32x12 .f32) : FVec Ideal S100000x12 .f32 :=
  fun i => ∑ k : Fin 32, a (ix2 (i 0) k) * b (ix2 k (i 1))

theorem zero_offsets : (![0, 0] : Fin 2 → Nat) = fun _ => 0 := funext fun a => by fin_cases a <;> rfl

/-- The body's stored value at entry y of a block: the sum over k of the loaded left block at (y 0, k) times the loaded
    right array at (k, y 1). The two roundings to bf16 are the identity, and so is the cast of the left block to its own shape. -/
theorem payload_apply (x0 : Vec Ideal S5000x32 .f32) (x1 : Vec Ideal S32x12 .f32) (y : S5000x12.Idx) :
    k1_pay1 (F := Ideal) x0 x1 y = ∑ k : Fin 32, x0 (ix2 (y 0) k) * x1 (ix2 k (y 1)) := by
  unfold k1_pay1
  refine (MatmulRows.matmul_zero_apply dot_S5000x32_S32x12_S5000x12_1_0_0_1_n_n none rfl rfl rfl rfl (fun _ _ => rfl) (fun _ _ => rfl) _ _ y).trans ?_
  refine Finset.sum_congr rfl fun k _ => ?_
  exact congrArg (· * x1 (ix2 k (y 1))) (congrFun (shapeCast_self x0 shapeCasts_S5000x32_S5000x32) (ix2 (y 0) k))

/-- The printed index maps, decided over the 20 grid points: the left and output windows sit at block (t, 0), the right
    window always at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section Entry

variable (V : (c : Dev nD) → (b : Ref sig .tc) → Buf (Elt Ideal) ((c : Thread nD τ).loc b))

/-- What grid point t writes back is block t of the product of the two input arrays as the region finds them. -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero zero_offsets]
  simp only [View.ld_unit_zero (S := S5000x32) zero_offsets, View.ld_unit_zero (S := S32x12) zero_offsets]
  obtain ⟨e0, e1, e2, e3, e4, e5⟩ := index_facts t
  funext y
  show k1_pay1 (F := Ideal) (iblk1 V c 0 t) (iblk1 V c 1 t) y = product (V c main_v47) (V c main_arg4) (((cfg1.win 2).blk t).view.emb y)
  refine (payload_apply _ _ y).trans ?_
  unfold product
  refine Finset.sum_congr rfl fun k _ => ?_
  have hy0 : (y 0).val < 5000 := (y 0).isLt
  have hy1 : (y 1).val < 12 := (y 1).isLt
  have hk : k.val < 32 := k.isLt
  have hl : iblk1 V c 0 t (ix2 (y 0) k) = V c main_v47 (ix2 ((((cfg1.win 2).blk t).view.emb y) 0) k) := by
    show V c main_v47 (((cfg1.win 0).blk t).view.emb (ix2 (y 0) k)) = _
    refine congrArg (V c main_v47) ?_
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 32 + 1 * k.val = k.val; omega
  have hr : iblk1 V c 1 t (ix2 k (y 1)) = V c main_arg4 (ix2 k ((((cfg1.win 2).blk t).view.emb y) 1)) := by
    show V c main_arg4 (((cfg1.win 1).blk t).view.emb (ix2 k (y 1))) = _
    refine congrArg (V c main_arg4) ?_
    funext a; apply Fin.ext
    match a with
    | ⟨0, _⟩ => show win1_1.index t (0 : Fin 2) * 32 + 1 * k.val = k.val; omega
    | ⟨1, _⟩ => show win1_1.index t (1 : Fin 2) * 12 + 1 * (y 1).val = win1_2.index t (1 : Fin 2) * 12 + 1 * (y 1).val; omega
  rw [hl, hr]

/-- An index of the output array lies in block t exactly when each coordinate lies in the block's range on its axis. -/
theorem mem_block (t : Fin cfg1.N) (i : S100000x12.Idx) :
    i ∈ ((cfg1.win 2).blk t).view.set ↔ ∀ a : Fin 2, win1_2.index t a * S5000x12.size a ≤ (i a).val ∧ (i a).val < win1_2.index t a * S5000x12.size a + S5000x12.size a := by
  show i ∈ ((View.whole main_v48).slice (win1_2.rect t)).set ↔ _
  rw [View.set_slice_whole, Rect.mem_set_unit]
  exact Iff.rfl

/-- Row r of the output lies in block r / 5000, and every block is written back: the blocks cover the array. -/
theorem covered (i : S100000x12.Idx) : ∃ t : Fin cfg1.N, (cfg1.win 2).flush t = true ∧ i ∈ ((cfg1.win 2).blk t).view.set := by
  have hi0 : (i 0).val < 100000 := (i 0).isLt
  have hi1 : (i 1).val < 12 := (i 1).isLt
  have hN : cfg1.N = 20 := N_1
  let t : Fin cfg1.N := ⟨(i 0).val / 5000, by rw [hN]; omega⟩
  obtain ⟨e0, e1, e2, e3, e4, e5⟩ := index_facts t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 12 ≤ (i 1).val ∧ (i 1).val < win1_2.index t (1 : Fin 2) * 12 + 12; omega

/-- After the region its output array is the product of its two input arrays as the region found them. -/
theorem output_eq (c : Dev nD) : (dat1 V c).arrAt 2 cfg1.N = product (V c main_v47) (V c main_arg4) :=
  (dat1 V c).arrAt_eq_of_cover 2 (product (V c main_v47) (V c main_arg4)) (fun t _ => flushed_eq V c t) covered

end Entry

end Cert.KernelIdeal.Layer2Product

end
-- ==== Proof.KernelValue.lean ====
/-
  The value the idealized kernel program leaves in its result buffer, as one function of the six arguments.

  The run's fold is read boundary by boundary. Before the first region the host operations leave the two index vectors
  (sources and targets with self loops) and the edge normalisation, and do not touch the arguments. The first region
  writes x @ W1 into its output and nothing else that is read later. The stretch between the regions turns that into the
  hidden activations max (aggregate (x @ W1) + b1, 0) and keeps the index vectors and the normalisation. The second region
  writes hidden @ W2. The last stretch aggregates that and adds b2. Each step is one of the lemmas about a stretch or a
  region, chained by transitivity; no host operation is opened here.
-/
import proofs.«157875_j67259187855731_2_alg».proof.Proof.Gen.KernelIdeal.Frame
import proofs.«157875_j67259187855731_2_alg».proof.Proof.HostChain
import proofs.«157875_j67259187855731_2_alg».proof.Proof.Layer1Product
import proofs.«157875_j67259187855731_2_alg».proof.Proof.Layer2Product

set_option maxRecDepth 16384

noncomputable section

namespace Cert.KernelIdeal.Whole

open Idealize.ShloMosaic Idealize.ShloMosaic.TcCoe Idealize.SL.Sem
open Cert.KernelIdeal Cert.KernelIdeal.Gen

/-- Two graph-convolution layers with the matrix products taken as plain sums: the function both programs compute. -/
def twoLayers (x : FVec Ideal S100000x256 .f32) (e : (⟨S2x3200000, .i32⟩ : BufTy).Contents (Elt Ideal))
    (w1 : FVec Ideal S256x32 .f32) (b1 : FVec Ideal S32 .f32) (w2 : FVec Ideal S32x12 .f32) (b2 : FVec Ideal S12 .f32) :
    FVec Ideal S100000x12 .f32 :=
  Graph.logits
    (Layer2Product.product
      (Graph.hidden (Layer1Product.product x w1) (Graph.src e) (Graph.dst e) (Graph.edgeNorm (Graph.src e) (Graph.dst e)) b1) w2)
    (Graph.src e) (Graph.dst e) (Graph.edgeNorm (Graph.src e) (Graph.dst e)) b2

variable (m : (ℓ : Loc nD τ sig) → Buf (Elt Ideal) ℓ) (ρ : Dev nD → PrngReg) (c : Dev nD)

/-! ## At the first region's entry -/

theorem entry1_x : W3 m ρ c (Proc.devRef .tc main_arg0) = m ((c : Thread nD τ).loc main_arg0) := Graph.prelude_arg0 (W0 m ρ c)
theorem entry1_w1 : W3 m ρ c (Proc.devRef .tc main_arg2) = m ((c : Thread nD τ).loc main_arg2) := Graph.prelude_arg2 (W0 m ρ c)
theorem entry1_b1 : W3 m ρ c (Proc.devRef .tc main_arg3) = m ((c : Thread nD τ).loc main_arg3) := Graph.prelude_arg3 (W0 m ρ c)
theorem entry1_w2 : W3 m ρ c (Proc.devRef .tc main_arg4) = m ((c : Thread nD τ).loc main_arg4) := Graph.prelude_arg4 (W0 m ρ c)
theorem entry1_b2 : W3 m ρ c (Proc.devRef .tc main_arg5) = m ((c : Thread nD τ).loc main_arg5) := Graph.prelude_arg5 (W0 m ρ c)
theorem entry1_src : W3 m ρ c (Proc.devRef .tc main_v5) = Graph.src (m ((c : Thread nD τ).loc main_arg1)) := Graph.prelude_src (W0 m ρ c)
theorem entry1_dst : W3 m ρ c (Proc.devRef .tc main_v6) = Graph.dst (m ((c : Thread nD τ).loc main_arg1)) := Graph.prelude_dst (W0 m ρ c)
theorem entry1_norm : W3 m ρ c (Proc.devRef .tc main_v29)
    = Graph.edgeNorm (Graph.src (m ((c : Thread nD τ).loc main_arg1))) (Graph.dst (m ((c : Thread nD τ).loc main_arg1))) :=
  Graph.prelude_norm (W0 m ρ c)

/-! ## At the first region's exit: its output is x @ W1, the rest as entered -/

theorem exit1_product : W4 m ρ c (Proc.devRef .tc main_v30)
    = Layer1Product.product (m ((c : Thread nD τ).loc main_arg0)) (m ((c : Thread nD τ).loc main_arg2)) :=
  (W4_arr m ρ c 2).trans ((Layer1Product.output_eq (V3 m ρ) c).trans
    (congrArg₂ Layer1Product.product (entry1_x m ρ c) (entry1_w1 m ρ c)))

theorem exit1_b1 : W4 m ρ c (Proc.devRef .tc main_arg3) = m ((c : Thread nD τ).loc main_arg3) :=
  (W4_of_ne m ρ c main_arg3 (by decide)).trans (entry1_b1 m ρ c)
theorem exit1_w2 : W4 m ρ c (Proc.devRef .tc main_arg4) = m ((c : Thread nD τ).loc main_arg4) :=
  (W4_of_ne m ρ c main_arg4 (by decide)).trans (entry1_w2 m ρ c)
theorem exit1_b2 : W4 m ρ c (Proc.devRef .tc main_arg5) = m ((c : Thread nD τ).loc main_arg5) :=
  (W4_of_ne m ρ c main_arg5 (by decide)).trans (entry1_b2 m ρ c)
theorem exit1_src : W4 m ρ c (Proc.devRef .tc main_v5) = Graph.src (m ((c : Thread nD τ).loc main_arg1)) :=
  (W4_of_ne m ρ c main_v5 (by decide)).trans (entry1_src m ρ c)
theorem exit1_dst : W4 m ρ c (Proc.devRef .tc main_v6) = Graph.dst (m ((c : Thread nD τ).loc main_arg1)) :=
  (W4_of_ne m ρ c main_v6 (by decide)).trans (entry1_dst m ρ c)
theorem exit1_norm : W4 m ρ c (Proc.devRef .tc main_v29)
    = Graph.edgeNorm (Graph.src (m ((c : Thread nD τ).loc main_arg1))) (Graph.dst (m ((c : Thread nD τ).loc main_arg1))) :=
  (W4_of_ne m ρ c main_v29 (by decide)).trans (entry1_norm m ρ c)

/-! ## At the second region's entry: the hidden activations -/

theorem entry2_hidden : W6 m ρ c (Proc.devRef .tc main_v47)
    = Graph.hidden (Layer1Product.product (m ((c : Thread nD τ).loc main_arg0)) (m ((c : Thread nD τ).loc main_arg2)))
        (Graph.src (m ((c : Thread nD τ).loc main_arg1))) (Graph.dst (m ((c : Thread nD τ).loc main_arg1)))
        (Graph.edgeNorm (Graph.src (m ((c : Thread nD τ).loc main_arg1))) (Graph.dst (m ((c : Thread nD τ).loc main_arg1))))
        (m ((c : Thread nD τ).loc main_arg3)) :=
  (Graph.between_hidden (W4 m ρ c)).trans (by
    rw [exit1_product m ρ c, exit1_src m ρ c, exit1_dst m ρ c, exit1_norm m ρ c, exit1_b1 m ρ c])

theorem entry2_w2 : W6 m ρ c (Proc.devRef .tc main_arg4) = m ((c : Thread nD τ).loc main_arg4) :=
  (Graph.between_arg4 (W4 m ρ c)).trans (exit1_w2 m ρ c)
theorem entry2_b2 : W6 m ρ c (Proc.devRef .tc main_arg5) = m ((c : Thread nD τ).loc main_arg5) :=
  (Graph.between_arg5 (W4 m ρ c)).trans (exit1_b2 m ρ c)
theorem entry2_src : W6 m ρ c (Proc.devRef .tc main_v5) = Graph.src (m ((c : Thread nD τ).loc main_arg1)) :=
  (Graph.between_v5 (W4 m ρ c)).trans (exit1_src m ρ c)
theorem entry2_dst : W6 m ρ c (Proc.devRef .tc main_v6) = Graph.dst (m ((c : Thread nD τ).loc main_arg1)) :=
  (Graph.between_v6 (W4 m ρ c)).trans (exit1_dst m ρ c)
theorem entry2_norm : W6 m ρ c (Proc.devRef .tc main_v29)
    = Graph.edgeNorm (Graph.src (m ((c : Thread nD τ).loc main_arg1))) (Graph.dst (m ((c : Thread nD τ).loc main_arg1))) :=
  (Graph.between_v29 (W4 m ρ c)).trans (exit1_norm m ρ c)

/-! ## At the second region's exit: its output is hidden @ W2, the rest as entered -/

theorem exit2_product : W7 m ρ c (Proc.devRef .tc main_v48)
    = Layer2Product.product
        (Graph.hidden (Layer1Product.product (m ((c : Thread nD τ).loc main_arg0)) (m ((c : Thread nD τ).loc main_arg2)))
          (Graph.src (m ((c : Thread nD τ).loc main_arg1))) (Graph.dst (m ((c : Thread nD τ).loc main_arg1)))
          (Graph.edgeNorm (Graph.src (m ((c : Thread nD τ).loc main_arg1))) (Graph.dst (m ((c : Thread nD τ).loc main_arg1))))
          (m ((c : Thread nD τ).loc main_arg3)))
        (m ((c : Thread nD τ).loc main_arg4)) :=
  (W7_arr m ρ c 2).trans ((Layer2Product.output_eq (V6 m ρ) c).trans
    (congrArg₂ Layer2Product.product (entry2_hidden m ρ c) (entry2_w2 m ρ c)))

theorem exit2_b2 : W7 m ρ c (Proc.devRef .tc main_arg5) = m ((c : Thread nD τ).loc main_arg5) :=
  (W7_of_ne m ρ c main_arg5 (by decide)).trans (entry2_b2 m ρ c)
theorem exit2_src : W7 m ρ c (Proc.devRef .tc main_v5) = Graph.src (m ((c : Thread nD τ).loc main_arg1)) :=
  (W7_of_ne m ρ c main_v5 (by decide)).trans (entry2_src m ρ c)
theorem exit2_dst : W7 m ρ c (Proc.devRef .tc main_v6) = Graph.dst (m ((c : Thread nD τ).loc main_arg1)) :=
  (W7_of_ne m ρ c main_v6 (by decide)).trans (entry2_dst m ρ c)
theorem exit2_norm : W7 m ρ c (Proc.devRef .tc main_v29)
    = Graph.edgeNorm (Graph.src (m ((c : Thread nD τ).loc main_arg1))) (Graph.dst (m ((c : Thread nD τ).loc main_arg1))) :=
  (W7_of_ne m ρ c main_v29 (by decide)).trans (entry2_norm m ρ c)

/-! ## The result -/

/-- The result buffer after the last stretch: the two layers of the six arguments. -/
theorem result_eq : W8 m ρ c (Proc.devRef .tc main_v64)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (Graph.tail_logits (W7 m ρ c)).trans (by
    rw [exit2_product m ρ c, exit2_src m ρ c, exit2_dst m ρ c, exit2_norm m ρ c, exit2_b2 m ρ c]
    rfl)

end Cert.KernelIdeal.Whole

end
-- ==== Proof.RefValue.lean ====
/-
  The idealized reference computes the same two layers.

  The reference's result term is the same chain of host operations as the kernel program's, with each layer's matrix
  product taken by the host's dot_general and with the index vectors, the degree and the edge normalisation written out
  again for the second layer (the same operations of the same edge list, so the same terms). The host's dot_general at
  the ideal instance is, entry by entry, the plain sum over the contracted axis; rewriting the two products to that sum
  leaves the kernel program's function of the arguments, letter for letter.
-/
import proofs.«157875_j67259187855731_2_alg».proof.Proof.RefRun
import proofs.«157875_j67259187855731_2_alg».proof.Proof.KernelValue
import proofs.«157875_j67259187855731_2_alg».proof.Proof.LibMatmulRows

set_option maxRecDepth 16384

noncomputable section

namespace Cert.ReferenceIdeal.RefValue

open Idealize.ShloMosaic Idealize.ShloMosaic.TcCoe Idealize.SL.Sem
open Cert.ReferenceIdeal Cert.ReferenceIdeal.Gen

/-- The first layer's dot_general is the product of its operands as a plain sum. -/
theorem dot1_eq (a : FVec Ideal S100000x256 .f32) (b : FVec Ideal S256x32 .f32) :
    FloatOps.dotGeneral dot_S100000x256_S256x32_S100000x32_1_0_0_1_n_n none .single a b = Cert.KernelIdeal.Layer1Product.product a b :=
  funext fun i => MatmulRows.dotGeneral_apply dot_S100000x256_S256x32_S100000x32_1_0_0_1_n_n none .single rfl rfl rfl rfl
    (fun _ _ => rfl) (fun _ _ => rfl) a b i

/-- The second layer's dot_general is the product of its operands as a plain sum. -/
theorem dot2_eq (a : FVec Ideal S100000x32 .f32) (b : FVec Ideal S32x12 .f32) :
    FloatOps.dotGeneral dot_S100000x32_S32x12_S100000x12_1_0_0_1_n_n none .single a b = Cert.KernelIdeal.Layer2Product.product a b :=
  funext fun i => MatmulRows.dotGeneral_apply dot_S100000x32_S32x12_S100000x12_1_0_0_1_n_n none .single rfl rfl rfl rfl
    (fun _ _ => rfl) (fun _ _ => rfl) a b i

/-- The two layers with the two matrix products left as parameters. -/
def layersWith (p1 : FVec Ideal Cert.KernelIdeal.S100000x256 .f32 → FVec Ideal Cert.KernelIdeal.S256x32 .f32 → FVec Ideal Cert.KernelIdeal.S100000x32 .f32)
    (p2 : FVec Ideal Cert.KernelIdeal.S100000x32 .f32 → FVec Ideal Cert.KernelIdeal.S32x12 .f32 → FVec Ideal Cert.KernelIdeal.S100000x12 .f32)
    (x : FVec Ideal Cert.KernelIdeal.S100000x256 .f32) (e : (⟨Cert.KernelIdeal.S2x3200000, .i32⟩ : BufTy).Contents (Elt Ideal))
    (w1 : FVec Ideal Cert.KernelIdeal.S256x32 .f32) (b1 : FVec Ideal Cert.KernelIdeal.S32 .f32)
    (w2 : FVec Ideal Cert.KernelIdeal.S32x12 .f32) (b2 : FVec Ideal Cert.KernelIdeal.S12 .f32) : FVec Ideal Cert.KernelIdeal.S100000x12 .f32 :=
  Cert.KernelIdeal.Graph.logits
    (p2 (Cert.KernelIdeal.Graph.hidden (p1 x w1) (Cert.KernelIdeal.Graph.src e) (Cert.KernelIdeal.Graph.dst e)
      (Cert.KernelIdeal.Graph.edgeNorm (Cert.KernelIdeal.Graph.src e) (Cert.KernelIdeal.Graph.dst e)) b1) w2)
    (Cert.KernelIdeal.Graph.src e) (Cert.KernelIdeal.Graph.dst e)
    (Cert.KernelIdeal.Graph.edgeNorm (Cert.KernelIdeal.Graph.src e) (Cert.KernelIdeal.Graph.dst e)) b2

/-- The reference's result term is that shape with the host's dot_general for both products: the same operations in the
    same order, the second layer's index vectors and normalisation being the first layer's terms written again. -/
theorem result_shape (m : (ℓ : Loc nD τ sig) → Buf (Elt Ideal) ℓ) (c : Dev nD) :
    Cert.ReferenceIdeal.ValueP.res_main_v90 (F := Ideal) m c
      = layersWith (fun a b => Host.dotGeneral dot_S100000x256_S256x32_S100000x32_1_0_0_1_n_n none a b)
          (fun a b => Host.dotGeneral dot_S100000x32_S32x12_S100000x12_1_0_0_1_n_n none a b)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 layersWith Cert.KernelIdeal.Graph.logits Cert.KernelIdeal.Graph.hidden
    Cert.KernelIdeal.Graph.edgeNorm Cert.KernelIdeal.Graph.invSqrtDeg Cert.KernelIdeal.Graph.degree Cert.KernelIdeal.Graph.wrapped
    Cert.KernelIdeal.Graph.src Cert.KernelIdeal.Graph.dst
  rfl

/-- The reference run's result term is the two layers of its six arguments. -/
theorem result_eq (m : (ℓ : Loc nD τ sig) → Buf (Elt Ideal) ℓ) (c : Dev nD) :
    Cert.ReferenceIdeal.ValueP.res_main_v90 (F := Ideal) m c
      = Cert.KernelIdeal.Whole.twoLayers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (result_shape m c).trans
    (congrArg₂ (fun p1 p2 => layersWith p1 p2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)))
      (funext fun a => funext fun b => dot1_eq a b) (funext fun a => funext fun b => dot2_eq a b))

end Cert.ReferenceIdeal.RefValue

end
-- ==== Proof.lean ====
/-
  Two graph-convolution layers, out = A (relu (A (x W1) + b1) W2) + b2 with A the symmetrically normalised adjacency
  (self loops added) applied by gather, per-edge scale and scatter-add: the kernel program takes each dense product
  x W1 and h W2 in a pipelined region of 20 row blocks (operands rounded to bf16, f32 accumulation from zero) and keeps the
  sparse aggregation on the host; the reference takes the products by dot_general and recomputes the normalisation per layer.

  At the ideal instance the rounding is the identity and each region's output array is the plain product of its input
  arrays (Layer1Product, Layer2Product); the host's dot_general is the same sum (RefValue). Everything else is the same
  host operations applied to the same values on both sides (HostChain), so the two results are one function of the
  arguments (KernelValue.twoLayers), equal entry by entry with no finiteness needed: the only law used is that both
  sides spell the same sum over the contracted axis. The frames of the two kernel programs are the generated ones; the
  reference's frame is its run with the result dropped; the idealization rewrote nothing, so preserves is trivial.
-/
import proofs.«157875_j67259187855731_2_alg».proof.Defs
import proofs.«157875_j67259187855731_2_alg».proof.Proof.Gen.Kernel
import proofs.«157875_j67259187855731_2_alg».proof.Proof.Gen.Kernel.Frame
import proofs.«157875_j67259187855731_2_alg».proof.Proof.Gen.KernelIdeal
import proofs.«157875_j67259187855731_2_alg».proof.Proof.Gen.KernelIdeal.Frame
import proofs.«157875_j67259187855731_2_alg».proof.Proof.Gen.ReferenceIdeal
import proofs.«157875_j67259187855731_2_alg».proof.Proof.Gen.Pre_finite_inputs
import proofs.«157875_j67259187855731_2_alg».proof.Proof.KernelRun
import proofs.«157875_j67259187855731_2_alg».proof.Proof.KernelValue
import proofs.«157875_j67259187855731_2_alg».proof.Proof.RefRun
import proofs.«157875_j67259187855731_2_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the two layers of those arguments in their result. -/
theorem algebraic : Cert.algebraic_KernelIdeal_ReferenceIdeal := by
  intro m ρ m' ρ' _ hagree
  refine ⟨fun c => Cert.KernelIdeal.Whole.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Whole.run_all (F := Ideal) m ρ)
    exact ⟨(h c _ Cert.KernelIdeal.Whole.v64_mem).trans (Cert.KernelIdeal.Whole.result_eq m ρ c),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c)⟩
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
